-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S5000x512 : Shape := ⟨2, ![5000, 512]⟩
abbrev S100000 : Shape := ⟨1, ![100000]⟩
abbrev S_ : Shape := ⟨0, ![]⟩
abbrev S5000 : Shape := ⟨1, ![5000]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S5000x512 : S_.BroadcastsInDim S5000x512 (![] : Fin 0 → Fin S5000x512.rank)
  reducesTo_S5000x512_S_d0_1 : S5000x512.ReducesTo [0, 1] S_
  reducesTo_S8192x512_S8192_d1 : S8192x512.ReducesTo [1] S8192
  bcast_S_S8192 : S_.BroadcastsInDim S8192 (![] : Fin 0 → Fin S8192.rank)
  reducesTo_S8192_S_d0 : S8192.ReducesTo [0] S_
  reducesTo_S5000x512_S5000_d1 : S5000x512.ReducesTo [1] S5000
  bcast_S_S5000 : S_.BroadcastsInDim S5000 (![] : Fin 0 → Fin S5000.rank)
  reducesTo_S5000_S_d0 : S5000.ReducesTo [0] S_

variable [Facts]

def fn_part1 {F : FTy → Type} [FloatOps F] (main_v14 : IVec S_ 1) (main_v15 : FVec F S5000x512 .f32) (main_cst_5 : FVec F S_ .f32) : IVec S_ 1 :=
  let main_v16 : FVec F S5000 .f32 := (fun x v => Host.reduceAdd x v reducesTo_S5000x512_S5000_d1 h_S_) main_v15 main_cst_5
  let main_cst_6 : FVec F S_ .f32 := constant S_ .f32 0x00000000#32
  let main_v17 : FVec F S5000 .f32 := broadcastInDim S5000 ![] bcast_S_S5000 main_cst_6
  let main_v18 : IVec S5000 1 := cmpf .ogt main_v16 main_v17
  let main_c_7 : IVec S_ 1 := constantI S_ 1 1#1
  let main_v19 : IVec S_ 1 := (fun x v => Host.reduce IntOp.andi x v reducesTo_S5000_S_d0 h_S_) main_v18 main_c_7
  let main_v20 : IVec S_ 1 := andi main_v14 main_v19
  main_v20

def fn {F : FTy → Type} [FloatOps F] (main_arg0 : FVec F S8192x512 .f32) (main_arg1 : IVec S8192 32) (main_arg2 : FVec F S5000x512 .f32) (main_arg3 : IVec S100000 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S5000x512 .f32 := Host.absf main_arg2
  let main_cst_0 : FVec F S_ .f32 := constant S_ .f32 0x7F800000#32
  let main_v5 : FVec F S5000x512 .f32 := broadcastInDim S5000x512 ![] bcast_S_S5000x512 main_cst_0
  let main_v6 : IVec S5000x512 1 := cmpf .olt main_v4 main_v5
  let main_c_1 : IVec S_ 1 := constantI S_ 1 1#1
  let main_v7 : IVec S_ 1 := (fun x v => Host.reduce IntOp.andi x v reducesTo_S5000x512_S_d0_1 h_S_) main_v6 main_c_1
  let main_v8 : IVec S_ 1 := andi main_v3 main_v7
  let main_v9 : FVec F S8192x512 .f32 := mulf main_arg0 main_arg0
  let main_cst_2 : FVec F S_ .f32 := constant S_ .f32 0x00000000#32
  let main_v10 : FVec F S8192 .f32 := (fun x v => Host.reduceAdd x v reducesTo_S8192x512_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  let main_v15 : FVec F S5000x512 .f32 := mulf main_arg2 main_arg2
  let main_cst_5 : FVec F S_ .f32 := constant S_ .f32 0x00000000#32
  fn_part1 (F := F) main_v14 main_v15 main_cst_5
-- ==== Kernel.lean ====
abbrev S8192x512 : Shape := ⟨2, ![8192, 512]⟩
abbrev S8192 : Shape := ⟨1, ![8192]⟩
abbrev S5000x512 : Shape := ⟨2, ![5000, 512]⟩
abbrev S100000 : Shape := ⟨1, ![100000]⟩
abbrev S_ : Shape := ⟨0, ![]⟩
abbrev S8192x1 : Shape := ⟨2, ![8192, 1]⟩
abbrev S5000 : Shape := ⟨1, ![5000]⟩
abbrev S5000x1 : Shape := ⟨2, ![5000, 1]⟩
abbrev S8192x5000 : Shape := ⟨2, ![8192, 5000]⟩
abbrev S256x1 : Shape := ⟨2, ![256, 1]⟩
abbrev S256x512 : Shape := ⟨2, ![256, 512]⟩
abbrev S256x5000 : Shape := ⟨2, ![256, 5000]⟩
abbrev S256 : Shape := ⟨1, ![256]⟩

abbrev nBuf : Space → Nat
  | .hbm => 16
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S5000x512, .f32⟩
  | .hbm, ⟨3, _⟩ => ⟨S100000, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S8192x1, .i32⟩
  | .hbm, ⟨14, _⟩ => ⟨S5000x512, .bf16⟩
  | .hbm, ⟨15, _⟩ => ⟨S8192x5000, .f32⟩
  | .local _ .vmem, ⟨0, _⟩ => ⟨S5000x512, .f32⟩
  | .local _ .vmem, ⟨1, _⟩ => ⟨S5000x512, .bf16⟩
  | .local _ .vmem, ⟨2, _⟩ => ⟨S256x1, .i32⟩
  | .local _ .vmem, ⟨3, _⟩ => ⟨S256x1, .i32⟩
  | .local _ .vmem, ⟨4, _⟩ => ⟨S256x512, .f32⟩
  | .local _ .vmem, ⟨5, _⟩ => ⟨S256x512, .f32⟩
  | .local _ .vmem, ⟨6, _⟩ => ⟨S5000x512, .bf16⟩
  | .local _ .vmem, ⟨7, _⟩ => ⟨S256x5000, .f32⟩
  | .local _ .vmem, ⟨8, _⟩ => ⟨S256x5000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  inb_S5000x512_S5000x512_0_0 : ∀ a, (![0, 0] : Fin 2 → Nat) a + S5000x512.size a ≤ S5000x512.size a
  h_S5000x512 : 0 < S5000x512.numel
  reduces_S5000x512_S5000 : S5000x512.Reduces [1] S5000
  shapeCasts_S5000_S5000x1 : S5000.ShapeCasts S5000x1
  broadcasts_S5000x1_S5000x512 : S5000x1.Broadcasts S5000x512
  bitsLt_bf16_f32 : FTy.bits .bf16 < FTy.bits .f32
  packedbf16_S5000x512_S5000x512_0_0 : (Rect.unit (s := S5000x512) ![0, 0] S5000x512.size inb_S5000x512_S5000x512_0_0).PackedRows (EltTy.packing .bf16)
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  shapeCasts_S5000x512_S5000x512 : S5000x512.ShapeCasts S5000x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x5000_d1_w32 : S256x5000.Iotas .tc 32 [1]
  broadcasts_S256x1_S256x5000 : S256x1.Broadcasts S256x5000
  reduces_S256x5000_S256 : S256x5000.Reduces [1] S256
  inb_S256x5000_S256x5000_0_0 : ∀ a, (![0, 0] : Fin 2 → Nat) a + S256x5000.size a ≤ S256x5000.size a
  h_S256x5000 : 0 < S256x5000.numel
  gather_S100000_S8192x1_S8192_n_0_n_n_0_1_1_wf : GatherDims.WF S100000 S8192x1 S8192 [] [0] [] [0] [] 1 ![1]
  dot_S256x512_S5000x512_S256x5000_1_1_0_0_n_n_wf : DotDims.WF S256x512 S5000x512 S256x5000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S5000x512.size a
  hwx0_0 : ∀ i : grid0.Coords, EltTy.bits .f32 = 32 ∨ (Rect.block (s := S5000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S5000x512.size a
  hwx0_1 : ∀ i : grid0.Coords, EltTy.bits .bf16 = 32 ∨ (Rect.block (s := S5000x512) S5000x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .i32 = 32 ∨ (Rect.block (s := S8192x1) S256x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S8192x512.size a
  hwx1_1 : ∀ i : grid1.Coords, EltTy.bits .f32 = 32 ∨ (Rect.block (s := S8192x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x512.size a ≤ S5000x512.size a
  hwx1_2 : ∀ i : grid1.Coords, EltTy.bits .bf16 = 32 ∨ (Rect.block (s := S5000x512) S5000x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x5000.size a ≤ S8192x5000.size a
  hwx1_3 : ∀ i : grid1.Coords, EltTy.bits .f32 = 32 ∨ (Rect.block (s := S8192x5000) S256x5000.size (cc1_transform_3 i) (hinb1_3 i)).WholeWords (EltTy.packing .f32)

variable [Facts₀]

def gather_S100000_S8192x1_S8192_n_0_n_n_0_1_1 : GatherDims S100000 S8192x1 S8192 where
  offsetDims := []
  collapsedSliceDims := [0]
  operandBatchingDims := []
  startIndicesBatchingDims := []
  startIndexMap := [0]
  indexVectorDim := 1
  sliceSizes := ![1]
  wf := gather_S100000_S8192x1_S8192_n_0_n_n_0_1_1_wf
def dot_S256x512_S5000x512_S256x5000_1_1_0_0_n_n : DotDims S256x512 S5000x512 S256x5000 where
  lhsContracting := [1]
  rhsContracting := [1]
  lhsNonContracting := [0]
  rhsNonContracting := [0]
  lhsBatch := []
  rhsBatch := []
  wf := dot_S256x512_S5000x512_S256x5000_1_1_0_0_n_n_wf

abbrev win0_0 : Pipeline.Window sig grid0 :=
  Pipeline.Window.ofSpec (Memref.whole main_arg2) S5000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x5000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192 : Shape := ⟨1, ![8192]⟩
abbrev S5000x512 : Shape := ⟨2, ![5000, 512]⟩
abbrev S100000 : Shape := ⟨1, ![100000]⟩
abbrev S_ : Shape := ⟨0, ![]⟩
abbrev S8192x1 : Shape := ⟨2, ![8192, 1]⟩
abbrev S5000 : Shape := ⟨1, ![5000]⟩
abbrev S5000x1 : Shape := ⟨2, ![5000, 1]⟩
abbrev S512x5000 : Shape := ⟨2, ![512, 5000]⟩
abbrev S8192x5000 : Shape := ⟨2, ![8192, 5000]⟩
abbrev S1x5000 : Shape := ⟨2, ![1, 5000]⟩

abbrev nBuf : Space → Nat
  | .hbm => 66
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S5000x512, .f32⟩
  | .hbm, ⟨3, _⟩ => ⟨S100000, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S5000x512, .f32⟩
  | .hbm, ⟨21, _⟩ => ⟨S_, .f32⟩
  | .hbm, ⟨22, _⟩ => ⟨S5000, .f32⟩
  | .hbm, ⟨23, _⟩ => ⟨S5000x1, .f32⟩
  | .hbm, ⟨24, _⟩ => ⟨S5000x1, .f32⟩
  | .hbm, ⟨25, _⟩ => ⟨S5000x512, .f32⟩
  | .hbm, ⟨26, _⟩ => ⟨S5000x512, .f32⟩
  | .hbm, ⟨27, _⟩ => ⟨S512x5000, .f32⟩
  | .hbm, ⟨28, _⟩ => ⟨S8192x5000, .f32⟩
  | .hbm, ⟨29, _⟩ => ⟨S8192x5000, .f32⟩
  | .hbm, ⟨30, _⟩ => ⟨S_, .f32⟩
  | .hbm, ⟨31, _⟩ => ⟨S8192x5000, .f32⟩
  | .hbm, ⟨32, _⟩ => ⟨S8192x5000, .f32⟩
  | .hbm, ⟨33, _⟩ => ⟨S_, .f32⟩
  | .hbm, ⟨34, _⟩ => ⟨S8192x5000, .f32⟩
  | .hbm, ⟨35, _⟩ => ⟨S8192x5000, .f32⟩
  | .hbm, ⟨36, _⟩ => ⟨S8192x5000, .f32⟩
  | .hbm, ⟨37, _⟩ => ⟨S_, .f32⟩
  | .hbm, ⟨38, _⟩ => ⟨S8192x5000, .f32⟩
  | .hbm, ⟨39, _⟩ => ⟨S8192x5000, .f32⟩
  | .hbm, ⟨40, _⟩ => ⟨S_, .f32⟩
  | .hbm, ⟨41, _⟩ => ⟨S8192x5000, .f32⟩
  | .hbm, ⟨42, _⟩ => ⟨S8192x5000, .f32⟩
  | .hbm, ⟨43, _⟩ => ⟨S8192x5000, .f32⟩
  | .hbm, ⟨44, _⟩ => ⟨S_, .f32⟩
  | .hbm, ⟨45, _⟩ => ⟨S8192x5000, .f32⟩
  | .hbm, ⟨46, _⟩ => ⟨S8192x5000, .i1⟩
  | .hbm, ⟨47, _⟩ => ⟨S_, .f32⟩
  | .hbm, ⟨48, _⟩ => ⟨S8192x5000, .f32⟩
  | .hbm, ⟨49, _⟩ => ⟨S8192x5000, .f32⟩
  | .hbm, ⟨50, _⟩ => ⟨S8192x5000, .f32⟩
  | .hbm, ⟨51, _⟩ => ⟨S8192x1, .i32⟩
  | .hbm, ⟨52, _⟩ => ⟨S1x5000, .i32⟩
  | .hbm, ⟨53, _⟩ => ⟨S8192x5000, .i32⟩
  | .hbm, ⟨54, _⟩ => ⟨S8192x5000, .i32⟩
  | .hbm, ⟨55, _⟩ => ⟨S8192x5000, .i1⟩
  | .hbm, ⟨56, _⟩ => ⟨S8192x5000, .f32⟩
  | .hbm, ⟨57, _⟩ => ⟨S8192x5000, .f32⟩
  | .hbm, ⟨58, _⟩ => ⟨S_, .f32⟩
  | .hbm, ⟨59, _⟩ => ⟨S8192x5000, .f32⟩
  | .hbm, ⟨60, _⟩ => ⟨S8192x5000, .f32⟩
  | .hbm, ⟨61, _⟩ => ⟨S8192x5000, .f32⟩
  | .hbm, ⟨62, _⟩ => ⟨S8192x5000, .f32⟩
  | .hbm, ⟨63, _⟩ => ⟨S_, .f32⟩
  | .hbm, ⟨64, _⟩ => ⟨S8192x5000, .f32⟩
  | .hbm, ⟨65, _⟩ => ⟨S8192x5000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x512_S8192_d1 : S8192x512.ReducesTo [1] S8192
  h_S_ : 0 < S_.numel
  bcast_S8192x1_S8192x512_0_1 : S8192x1.BroadcastsInDim S8192x512 (![0, 1] : Fin 2 → Fin S8192x512.rank)
  reducesTo_S5000x512_S5000_d1 : S5000x512.ReducesTo [1] S5000
  bcast_S5000_S5000x1_0 : S5000.BroadcastsInDim S5000x1 (![0] : Fin 1 → Fin S5000x1.rank)
  bcast_S5000x1_S5000x512_0_1 : S5000x1.BroadcastsInDim S5000x512 (![0, 1] : Fin 2 → Fin S5000x512.rank)
  transposes_S5000x512_S512x5000_1_0 : S5000x512.Transposes [1, 0] S512x5000
  bcast_S_S8192x5000 : S_.BroadcastsInDim S8192x5000 (![] : Fin 0 → Fin S8192x5000.rank)
  bcast_S8192x1_S8192x5000_0_1 : S8192x1.BroadcastsInDim S8192x5000 (![0, 1] : Fin 2 → Fin S8192x5000.rank)
  bcast_S1x5000_S8192x5000_0_1 : S1x5000.BroadcastsInDim S8192x5000 (![0, 1] : Fin 2 → Fin S8192x5000.rank)
  gather_S100000_S8192x1_S8192_n_0_n_n_0_1_1_wf : GatherDims.WF S100000 S8192x1 S8192 [] [0] [] [0] [] 1 ![1]
  dot_S8192x512_S512x5000_S8192x5000_1_0_0_1_n_n_wf : DotDims.WF S8192x512 S512x5000 S8192x5000 [1] [0] [0] [1] [] []

variable [Facts₀]

def gather_S100000_S8192x1_S8192_n_0_n_n_0_1_1 : GatherDims S100000 S8192x1 S8192 where
  offsetDims := []
  collapsedSliceDims := [0]
  operandBatchingDims := []
  startIndicesBatchingDims := []
  startIndexMap := [0]
  indexVectorDim := 1
  sliceSizes := ![1]
  wf := gather_S100000_S8192x1_S8192_n_0_n_n_0_1_1_wf
def dot_S8192x512_S512x5000_S8192x5000_1_0_0_1_n_n : DotDims S8192x512 S512x5000 S8192x5000 where
  lhsContracting := [1]
  rhsContracting := [0]
  lhsNonContracting := [0]
  rhsNonContracting := [1]
  lhsBatch := []
  rhsBatch := []
  wf := dot_S8192x512_S512x5000_S8192x5000_1_0_0_1_n_n_wf

class Facts : Prop extends Facts₀ where

variable [Facts]
-- ==== Proof.LibBlockOps.lean ====
/-
  Blocks of rows read at an index, over arbitrary sizes: a column repeated across the columns of a block, a product with a
  transposed weight, the stage that averages a block of neighbour sums and projects it, and the logarithm of the softmax
  of a block with two columns.

  • An `[m, 1]` column repeated across `n` columns reads, at `(a, c)`, the column at `(a, 0)`; a length-`m` vector cast
    to such a column first reads the vector at `a`.
  • A block `[m, k]` times the transpose of a weight `[n, k]`, into a zero accumulator, is at `(a, j)` the contraction
    `∑ c, A (a, c) · W (j, c)`.
  • The averaging stage divides each row of a block of sums by that row's count, clipped below at a threshold, projects
    the quotient by one weight, adds a one-row bias, and adds the projection of a second block by a second weight.
  • For a block with two columns the row maximum, taken as a fold of `max` from `-∞` and then `max` with `-∞` once more,
    is the larger of the row's two entries; subtracting it, exponentiating, summing along the row, taking the logarithm
    and subtracting that gives the logarithm of the softmax of the row.
-/
import Idealize.ShloMosaic.Lib.StackMember
import Idealize.ShloMosaic.Lib.KernelVsHost
import Idealize.ShloMosaic.Lib.ValueLayout
import Idealize.ShloMosaic.PureOps.Ideal.Laws

noncomputable section

namespace Cert.BlockOps

open Idealize.ShloMosaic Idealize.ShloMosaic.ValueIdx Idealize.ShloMosaic.StackMember

variable {m k n : Nat}

/-! ## A column repeated across columns -/

/-- An `[m, 1]` column repeated across `n` columns reads, at `(a, c)`, the column at `(a, 0)`. -/
theorem broadcastTo_a1_ab_apply {α : Type} (v : (⟨2, ![m, 1]⟩ : Shape).Idx → α)
    (h : (⟨2, ![m, 1]⟩ : Shape).Broadcasts ⟨2, ![m, n]⟩) (a : Fin m) (c : Fin n) :
    broadcastTo ⟨2, ![m, n]⟩ v h (ix2 a c) = v (ix2 a (0 : Fin 1)) := by
  refine broadcastTo_apply v h (ix2 a c) (ix2 a (0 : Fin 1)) fun ax => ?_
  match ax with
  | ⟨0, _⟩ =>
    show a.val = if m = 1 then 0 else a.val
    split
    · have := a.isLt; omega
    · rfl
  | ⟨1, _⟩ => rfl

/-- A length-`m` vector cast to a column and repeated across `n` columns reads, at `(a, c)`, the vector at `a`. -/
theorem columnBroadcast_apply {α : Type} (x : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (a : Fin m) (c : Fin n) :
    broadcastTo ⟨2, ![m, n]⟩ (shapeCast ⟨2, ![m, 1]⟩ x hc) hb (ix2 a c) = x (ix1 a) := by
  rw [broadcastTo_a1_ab_apply]
  exact shapeCast_apply x hc _ _ (by
    rw [Shape.rowMajor_val_two, Shape.rowMajor_val_one]
    show a.val = a.val * 1 + 0
    omega)

/-! ## A product with a transposed weight -/

/-- A block times the transpose of a weight, into the zero accumulator, at `(a, j)`: both factors are read along their
    second coordinate. -/
theorem matmul_transposed_apply (d : DotDims ⟨2, ![m, k]⟩ ⟨2, ![k, n]⟩ ⟨2, ![m, n]⟩) (hd : d = DotDims.plain m k n)
    (prec : Option ContractPrecision) (A : FVec Ideal ⟨2, ![m, k]⟩ .f32) (W : FVec Ideal ⟨2, ![n, k]⟩ .f32)
    (hW : (⟨2, ![n, k]⟩ : Shape).Transposes [1, 0] ⟨2, ![k, n]⟩) (a : Fin m) (j : Fin n) :
    matmul d prec A (transpose ⟨2, ![k, n]⟩ [1, 0] W hW) (constant ⟨2, ![m, n]⟩ .f32 0x00000000#32) (ix2 a j)
      = ∑ c : Fin k, A (ix2 a c) * W (ix2 j c) := by
  subst hd
  rw [matmul_zero_eq_dotGeneral, dotGeneral_plain_apply]
  exact Finset.sum_congr rfl fun c _ => by rw [transpose_ix2_apply]

/-! ## The averaging stage -/

/-- The quotient of a block of sums by its rows' clipped counts, at `(a, c)`. -/
theorem clippedMean_apply (N : FVec Ideal ⟨2, ![m, k]⟩ .f32) (D : FVec Ideal ⟨2, ![m, 1]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩) (a : Fin m) (c : Fin k) :
    divf (shapeCast ⟨2, ![m, k]⟩ N hN)
        (broadcastTo ⟨2, ![m, k]⟩
          (maximumf (shapeCast ⟨2, ![m, 1]⟩ D hD) (broadcast ⟨2, ![m, 1]⟩ (Scalar.ofBits (F := Ideal) .f32 θ))) hDb) (ix2 a c)
      = Ideal.div (N (ix2 a c)) (max (D (ix2 a (0 : Fin 1))) (Ideal.ofBits .f32 θ)) := by
  rw [divf_apply, broadcastTo_a1_ab_apply, maximumf_apply, shapeCast_self N hN, shapeCast_self D hD]
  rfl

/-- The averaging stage at `(a, j)`. -/
theorem meanProject_apply (d : DotDims ⟨2, ![m, k]⟩ ⟨2, ![k, n]⟩ ⟨2, ![m, n]⟩) (hd : d = DotDims.plain m k n)
    (prec : Option ContractPrecision)
    (N : FVec Ideal ⟨2, ![m, k]⟩ .f32) (D : FVec Ideal ⟨2, ![m, 1]⟩ .f32) (W₁ : FVec Ideal ⟨2, ![n, k]⟩ .f32)
    (B : FVec Ideal ⟨2, ![1, n]⟩ .f32) (X : FVec Ideal ⟨2, ![m, k]⟩ .f32) (W₂ : FVec Ideal ⟨2, ![n, k]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩)
    (hW : (⟨2, ![n, k]⟩ : Shape).Transposes [1, 0] ⟨2, ![k, n]⟩)
    (hB : (⟨2, ![1, n]⟩ : Shape).ShapeCasts ⟨2, ![1, n]⟩) (hBb : (⟨2, ![1, n]⟩ : Shape).Broadcasts ⟨2, ![m, n]⟩)
    (a : Fin m) (j : Fin n) :
    addf
        (addf
          (matmul d prec
            (divf (shapeCast ⟨2, ![m, k]⟩ N hN)
              (broadcastTo ⟨2, ![m, k]⟩
                (maximumf (shapeCast ⟨2, ![m, 1]⟩ D hD) (broadcast ⟨2, ![m, 1]⟩ (Scalar.ofBits (F := Ideal) .f32 θ))) hDb))
            (transpose ⟨2, ![k, n]⟩ [1, 0] W₁ hW) (constant ⟨2, ![m, n]⟩ .f32 0x00000000#32))
          (broadcastTo ⟨2, ![m, n]⟩ (shapeCast ⟨2, ![1, n]⟩ B hB) hBb))
        (matmul d prec X (transpose ⟨2, ![k, n]⟩ [1, 0] W₂ hW) (constant ⟨2, ![m, n]⟩ .f32 0x00000000#32)) (ix2 a j)
      = ((∑ c : Fin k, Ideal.div (N (ix2 a c)) (max (D (ix2 a (0 : Fin 1))) (Ideal.ofBits .f32 θ)) * W₁ (ix2 j c))
          + B (ix2 (0 : Fin 1) j))
        + ∑ c : Fin k, X (ix2 a c) * W₂ (ix2 j c) := by
  rw [addf_apply, addf_apply, matmul_transposed_apply d hd, matmul_transposed_apply d hd, broadcastTo_1b_ab_apply,
    shapeCast_self B hB]
  refine congrArg (fun t => t + B (ix2 (0 : Fin 1) j) + ∑ c : Fin k, X (ix2 a c) * W₂ (ix2 j c))
    (Finset.sum_congr rfl fun c _ => ?_)
  rw [clippedMean_apply]

/-! ## The logarithm of the softmax of a block with two columns -/

/-- The index of a one-axis reduction along the rows: the result index `a` with the column `q` put back. -/
theorem lift_columns (h : (⟨2, ![m, n]⟩ : Shape).Reduces [1] ⟨1, ![m]⟩) (a : Fin m) (q : Fin n) :
    h.lift (ix1 a) q = ix2 a q := by
  funext c
  refine Fin.ext ?_
  match c with
  | ⟨0, _⟩ => rfl
  | ⟨1, _⟩ => rfl

/-- The fold of `max` from `-∞` over two values is the larger of the two. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The pattern of `-∞` denotes the least extended real. -/
theorem ofBits_negInf_f32 : Ideal.ofBits .f32 0xFF800000#32 = ⊥ := by simp [Ideal.ofBits, Ideal.ieee]

/-- The row maximum of a two-column block, as a fold from `-∞` followed by a `max` with `-∞`, at row `a`. -/
theorem rowMax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ) (a : Fin m) :
    maximumf (broadcast ⟨1, ![m]⟩ (Scalar.ofBits (F := Ideal) .f32 0xFF800000#32))
        (multiReduction (F := Ideal) .maximumf [1] ⟨1, ![m]⟩ Z 0xFF800000#32 hr hφ hmax) (ix1 a)
      = max (Z (ix2 a (0 : Fin 2))) (Z (ix2 a (1 : Fin 2))) := by
  rw [maximumf_apply]
  refine (congrArg (max _) (Ideal.multiReduction_maximumf_single Z _ hr hφ hmax (ix1 a))).trans ?_
  have hfold : (Finset.univ : Finset (Fin 2)).fold max (Ideal.ofBits .f32 0xFF800000#32)
      (fun q : Fin 2 => Z (hr.lift (ix1 a) q)) = max (Z (ix2 a (0 : Fin 2))) (Z (ix2 a (1 : Fin 2))) := by
    rw [ofBits_negInf_f32, fold_max_two, lift_columns, lift_columns]
  exact (congrArg (max (Ideal.ofBits .f32 0xFF800000#32)) hfold).trans (by rw [ofBits_negInf_f32, max_bot_left])

/-- The sum along the rows of a block, at row `a`: the sum over the row's entries. -/
theorem rowSum_apply (src : FVec Ideal ⟨2, ![m, n]⟩ .f32)
    (hr : (⟨2, ![m, n]⟩ : Shape).Reduces [1] ⟨1, ![m]⟩) (hφ : FKind.Formats .f32)
    (hadd : (0x00000000#32 : BitVec 32) = FKind.add.neutral .f32 hφ) (a : Fin m) :
    multiReduction (F := Ideal) .add [1] ⟨1, ![m]⟩ src 0x00000000#32 hr hφ hadd (ix1 a) = ∑ q : Fin n, src (ix2 a q) :=
  (Ideal.multiReduction_add_single src _ hr hφ hadd (ix1 a)).trans
    (Finset.sum_congr rfl fun q _ => congrArg src (lift_columns hr a q))

/-- The logarithm of the softmax of a two-column block at `(a, j)`, computed with the row maximum subtracted first. -/
theorem logSoftmax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 2]⟩)
    (a : Fin m) (j : Fin 2) :
    subf
        (subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, 2]⟩
          (log (shapeCast ⟨2, ![m, 1]⟩
            (multiReduction (F := Ideal) .add [1] ⟨1, ![m]⟩
              (exp (subf Z (broadcastTo ⟨2, ![m, 2]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 a j)
      = (Z (ix2 a j) - max (Z (ix2 a (0 : Fin 2))) (Z (ix2 a (1 : Fin 2))))
        - Ideal.log (∑ q : Fin 2, Ideal.exp (Z (ix2 a q) - max (Z (ix2 a (0 : Fin 2))) (Z (ix2 a (1 : Fin 2))))) := by
  have hcen : ∀ q : Fin 2,
      subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb) (ix2 a q)
        = Z (ix2 a q) - max (Z (ix2 a (0 : Fin 2))) (Z (ix2 a (1 : Fin 2))) := fun q => by
    rw [subf_apply, columnBroadcast_apply, rowMax_two_apply]
  rw [subf_apply, hcen j, broadcastTo_a1_ab_apply]
  refine congrArg (fun t => Z (ix2 a j) - max (Z (ix2 a (0 : Fin 2))) (Z (ix2 a (1 : Fin 2))) - Ideal.log t) ?_
  refine (shapeCast_apply _ hc (ix2 a (0 : Fin 1)) (ix1 a) (by
    rw [Shape.rowMajor_val_two, Shape.rowMajor_val_one]
    show a.val = a.val * 1 + 0
    omega)).trans ?_
  refine (rowSum_apply _ hr hφ hadd a).trans ?_
  exact Finset.sum_congr rfl fun q _ => congrArg Ideal.exp (hcen q)

end Cert.BlockOps

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.LibUnitRows.lean ====
/- Rows divided by their own Euclidean norm: over the reals such a row has entries of absolute value at most one, so the inner
    product of two such rows of length `K` is at most `K` in absolute value; and over the extended reals, with the operations that
    give division by zero and the square root of a negative number a value, a finite row that is not all zero is normalised to
    the same row as over the reals. -/
import Mathlib.Analysis.SpecialFunctions.Pow.Real
import Mathlib.Algebra.BigOperators.Group.Finset.Basic
import Mathlib.Algebra.Order.BigOperators.Group.Finset
import Mathlib.Data.EReal.Inv
import Idealize.ShloMosaic.PureOps.Ideal

noncomputable section

namespace Cert.Lib.UnitRows

open scoped BigOperators
open Idealize.ShloMosaic

variable {K : ℕ}

/-! ## Over the reals -/

/-- The sum of the squares of a row with a nonzero entry is positive. -/
theorem sumSq_pos (a : Fin K → ℝ) (ha : ∃ k, a k ≠ 0) : 0 < ∑ k, a k * a k := by
  obtain ⟨k, hk⟩ := ha
  exact Finset.sum_pos' (fun j _ => mul_self_nonneg (a j)) ⟨k, Finset.mem_univ k, mul_self_pos.mpr hk⟩

/-- The Euclidean norm of a row with a nonzero entry is positive. -/
theorem norm_pos (a : Fin K → ℝ) (ha : ∃ k, a k ≠ 0) : 0 < Real.sqrt (∑ k, a k * a k) :=
  Real.sqrt_pos.mpr (sumSq_pos a ha)

/-- Every entry of a row is at most the row's Euclidean norm in absolute value. -/
theorem abs_le_norm (a : Fin K → ℝ) (k : Fin K) : |a k| ≤ Real.sqrt (∑ j, a j * a j) := by
  rw [← Real.sqrt_mul_self_eq_abs]
  exact Real.sqrt_le_sqrt
    (Finset.single_le_sum (f := fun j => a j * a j) (fun j _ => mul_self_nonneg (a j)) (Finset.mem_univ k))

/-- Every entry of a row divided by the row's Euclidean norm is at most one in absolute value. -/
theorem abs_div_norm_le_one (a : Fin K → ℝ) (ha : ∃ k, a k ≠ 0) (k : Fin K) :
    |a k / Real.sqrt (∑ j, a j * a j)| ≤ 1 := by
  rw [abs_div, abs_of_pos (norm_pos a ha)]
  exact (div_le_one (norm_pos a ha)).mpr (abs_le_norm a k)

/-- The inner product of two rows of length `K`, each divided by its own Euclidean norm, is at most `K` in absolute value. -/
theorem abs_inner_le (a b : Fin K → ℝ) (ha : ∃ k, a k ≠ 0) (hb : ∃ k, b k ≠ 0) :
    |∑ k, (a k / Real.sqrt (∑ j, a j * a j)) * (b k / Real.sqrt (∑ j, b j * b j))| ≤ (K : ℝ) := by
  have hterm : ∀ k : Fin K,
      |(a k / Real.sqrt (∑ j, a j * a j)) * (b k / Real.sqrt (∑ j, b j * b j))| ≤ 1 := by
    intro k
    rw [abs_mul]
    calc |a k / Real.sqrt (∑ j, a j * a j)| * |b k / Real.sqrt (∑ j, b j * b j)|
        ≤ 1 * 1 := mul_le_mul (abs_div_norm_le_one a ha k) (abs_div_norm_le_one b hb k) (abs_nonneg _) zero_le_one
      _ = 1 := one_mul 1
  calc |∑ k, (a k / Real.sqrt (∑ j, a j * a j)) * (b k / Real.sqrt (∑ j, b j * b j))|
      ≤ ∑ k, |(a k / Real.sqrt (∑ j, a j * a j)) * (b k / Real.sqrt (∑ j, b j * b j))| :=
        Finset.abs_sum_le_sum_abs _ _
    _ ≤ ∑ _k : Fin K, (1 : ℝ) := Finset.sum_le_sum (fun k _ => hterm k)
    _ = (K : ℝ) := by simp

/-! ## Over the extended reals -/

/-- The extended real of a finite sum of reals is the sum of the extended reals. -/
theorem coe_sum {ι : Type} (t : Finset ι) (f : ι → ℝ) :
    ((∑ k ∈ t, f k : ℝ) : EReal) = ∑ k ∈ t, (f k : EReal) := by
  classical
  refine Finset.induction_on t (by simp) ?_
  intro a t ha ih
  rw [Finset.sum_insert ha, Finset.sum_insert ha, EReal.coe_add, ih]

/-- The sum of the squares of a finite row, started from zero, is the extended real of the reals' sum of squares. -/
theorem zero_add_sumSq (r : Fin K → ℝ) :
    (0 : EReal) + ∑ j, (r j : EReal) * (r j : EReal) = ((∑ j, r j * r j : ℝ) : EReal) := by
  rw [zero_add, coe_sum]
  simp only [EReal.coe_mul]

/-- The extended square root of that sum is the extended real of the row's Euclidean norm. -/
theorem sqrt_sumSq (r : Fin K → ℝ) :
    Ideal.sqrt ((0 : EReal) + ∑ j, (r j : EReal) * (r j : EReal)) = ((Real.sqrt (∑ j, r j * r j) : ℝ) : EReal) := by
  rw [zero_add_sumSq, Ideal.sqrt_coe,
    if_neg (not_lt.mpr (Finset.sum_nonneg (fun j _ => mul_self_nonneg (r j))))]

/-- A finite row that is not all zero, divided entry by entry by the extended square root of its sum of squares, is the extended
    real of the row divided by its Euclidean norm: neither the division by zero nor the root of a negative number is met. -/
theorem div_sqrt_sumSq (r : Fin K → ℝ) (hr : ∃ k, r k ≠ 0) (k : Fin K) :
    Ideal.div (r k : EReal) (Ideal.sqrt ((0 : EReal) + ∑ j, (r j : EReal) * (r j : EReal)))
      = ((r k / Real.sqrt (∑ j, r j * r j) : ℝ) : EReal) := by
  rw [sqrt_sumSq, Ideal.div_coe (norm_pos r hr).ne', ← EReal.coe_mul, mul_one_div]

/-- The same for a row of extended reals given as the extended reals of a real row. -/
theorem div_sqrt_sumSq_of_eq (e : Fin K → EReal) (r : Fin K → ℝ) (he : ∀ k, e k = (r k : EReal)) (hr : ∃ k, r k ≠ 0)
    (k : Fin K) :
    Ideal.div (e k) (Ideal.sqrt ((0 : EReal) + ∑ j, e j * e j)) = ((r k / Real.sqrt (∑ j, r j * r j) : ℝ) : EReal) := by
  have hfun : e = fun k => (r k : EReal) := funext he
  subst hfun
  exact div_sqrt_sumSq r hr k

/-- The same for a row of extended reals all finite and not all zero, read back as reals. -/
theorem div_sqrt_sumSq_of_finite (e : Fin K → EReal) (hfin : ∀ k, e k ≠ ⊤ ∧ e k ≠ ⊥) (hne : ∃ k, e k ≠ 0) (k : Fin K) :
    Ideal.div (e k) (Ideal.sqrt ((0 : EReal) + ∑ j, e j * e j))
      = (((e k).toReal / Real.sqrt (∑ j, (e j).toReal * (e j).toReal) : ℝ) : EReal) := by
  have he : ∀ k, e k = ((e k).toReal : EReal) := fun k => (EReal.coe_toReal (hfin k).1 (hfin k).2).symm
  refine div_sqrt_sumSq_of_eq e (fun k => (e k).toReal) he ?_ k
  obtain ⟨k0, hk0⟩ := hne
  refine ⟨k0, fun h0 => hk0 ?_⟩
  rw [he k0]
  show (((e k0).toReal : ℝ) : EReal) = 0
  rw [h0, EReal.coe_zero]

end Cert.Lib.UnitRows

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.Margin.lean ====
/-
  The margin layer on one row, as mathematics on the extended reals.

  A row `x` of the batch and a row `w` of the class table are each divided by their Euclidean norm, and their inner
  product `c` is the cosine of the angle between them. A row carries one label; at the labelled class the cosine is
  replaced by `φ(c) = c·cos m − √(max(1 − c², 0))·sin m` where `c` is above the threshold and by `c − mm` below it,
  elsewhere it is kept, and everything is multiplied by the scale `s`.

  Two ways of writing this are compared. One multiplies each row by the reciprocal square root of its sum of squares,
  picks the labelled cosine of the row out as a sum over the classes in which every other term is zero, and adds the
  correction `(φ(c) − c)·s` at the labelled class to `c·s`. The other divides by the square root, evaluates `φ` at every
  class, and blends `φ(c)` and `c` with the weights `1` and `0` of the label's indicator before multiplying by `s`.
  For rows of real numbers that are not all zero the two agree: both normalisations give the real row over its norm,
  the cosine is then a real number, and on real numbers `c·s + (φ(c) − c)·s = φ(c)·s`.
-/
import Idealize.ShloMosaic.PureOps.Ideal
import Idealize.ShloMosaic.PureOps.Ideal.Laws
import Idealize.ShloMosaic.Lib.IdealHost
import Idealize.ShloMosaic.Lib.Affine
import proofs.«137166_j21114059227271_2_alg».proof.Proof.LibUnitRows
import proofs.«137166_j21114059227271_2_alg».proof.Proof.LibFinite

noncomputable section

namespace Cert.Margin

open scoped BigOperators
open Idealize.ShloMosaic Cert.Finite

/-! ## The constants, as the words both programs carry -/

/-- cos m -/
abbrev cosM : EReal := Ideal.ofBits .f32 0x3F60A940#32
/-- sin m -/
abbrev sinM : EReal := Ideal.ofBits .f32 0x3EF57744#32
/-- the threshold cos(π − m) -/
abbrev thr : EReal := Ideal.ofBits .f32 0xBF60A940#32
/-- mm = sin(π − m)·m -/
abbrev mm : EReal := Ideal.ofBits .f32 0x3E757744#32
/-- the scale -/
abbrev scl : EReal := Ideal.ofBits .f32 0x41F00000#32
abbrev one : EReal := Ideal.ofBits .f32 0x3F800000#32
abbrev zero : EReal := Ideal.ofBits .f32 0x00000000#32

/-- A single-precision word whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split
  · exact isReal_coe _
  · exact isReal_coe _

theorem cosM_real : IsReal cosM := isReal_ofBits_f32 _ (by decide)
theorem sinM_real : IsReal sinM := isReal_ofBits_f32 _ (by decide)
theorem thr_real : IsReal thr := isReal_ofBits_f32 _ (by decide)
theorem mm_real : IsReal mm := isReal_ofBits_f32 _ (by decide)
theorem scl_real : IsReal scl := isReal_ofBits_f32 _ (by decide)
theorem one_eq : one = 1 := Ideal.ofBits_one_f32
theorem zero_eq : zero = 0 := Ideal.ofBits_zero_f32

/-! ## The margin function -/

/-- `φ`: the cosine of the angle enlarged by the margin above the threshold, a linear penalty below it. -/
def phi (c : EReal) : EReal :=
  Scalar.select (Ideal.cmp .ogt c thr) (c * cosM - Ideal.sqrt (max (one - c * c) zero) * sinM) (c - mm)

/-- The square root of a real number cut off below at zero is real. -/
theorem sqrt_max_zero_real {a : EReal} (ha : IsReal a) : IsReal (Ideal.sqrt (max a zero)) := by
  obtain ⟨r, rfl⟩ := ha
  rw [zero_eq, show (0 : EReal) = ((0 : ℝ) : EReal) from rfl,
    (EReal.coe_strictMono.monotone.map_max (a := r) (b := 0)).symm, Ideal.sqrt_coe,
    if_neg (not_lt.mpr (le_max_right r 0))]
  exact isReal_coe _

/-- `φ` of a real number is real. -/
theorem phi_real {c : EReal} (hc : IsReal c) : IsReal (phi c) := by
  unfold phi Scalar.select
  have h1 : IsReal one := by rw [one_eq]; exact isReal_one
  split
  · exact (hc.mul cosM_real).sub ((sqrt_max_zero_real (h1.sub (hc.mul hc))).mul sinM_real)
  · exact hc.sub mm_real

/-! ## A row over its norm -/

variable {K : ℕ}

/-- The row over its Euclidean norm, as real numbers. -/
def unit (e : Fin K → EReal) (k : Fin K) : EReal :=
  (((e k).toReal / Real.sqrt (∑ j, (e j).toReal * (e j).toReal) : ℝ) : EReal)

theorem unit_real (e : Fin K → EReal) (k : Fin K) : IsReal (unit e k) := isReal_coe _

/-- A row whose sum of squares is positive is not all zero. -/
theorem exists_ne_zero_of_pos (e : Fin K → EReal) (hpos : (0 : EReal) < ∑ j, e j * e j) : ∃ k, e k ≠ 0 := by
  by_contra h
  have h' : ∀ k, e k = 0 := fun k => not_not.mp fun hk => h ⟨k, hk⟩
  have : (∑ j, e j * e j) = 0 := Finset.sum_eq_zero fun j _ => by rw [h' j, mul_zero]
  rw [this] at hpos
  exact lt_irrefl _ hpos

/-- Dividing a real row, not all zero, by the square root of its sum of squares gives the row over its norm. -/
theorem div_sqrt_eq_unit (e : Fin K → EReal) (hfin : ∀ k, IsReal (e k)) (hpos : (0 : EReal) < ∑ j, e j * e j) (k : Fin K) :
    Ideal.div (e k) (Ideal.sqrt (zero + ∑ j, e j * e j)) = unit e k := by
  rw [zero_eq]
  exact Cert.Lib.UnitRows.div_sqrt_sumSq_of_finite e (fun k => ⟨(hfin k).ne_top, (hfin k).ne_bot⟩)
    (exists_ne_zero_of_pos e hpos) k

/-- Multiplying it by the reciprocal square root of its sum of squares gives the same. -/
theorem mul_rsqrt_eq_unit (e : Fin K → EReal) (hfin : ∀ k, IsReal (e k)) (hpos : (0 : EReal) < ∑ j, e j * e j) (k : Fin K) :
    e k * Ideal.rsqrt (∑ j, e j * e j) = unit e k := by
  have he : ∀ k, e k = ((e k).toReal : EReal) := fun k => (EReal.coe_toReal (hfin k).ne_top (hfin k).ne_bot).symm
  have hsum : (∑ j, e j * e j) = ((∑ j, (e j).toReal * (e j).toReal : ℝ) : EReal) := by
    rw [Cert.Lib.UnitRows.coe_sum]
    exact Finset.sum_congr rfl fun j _ => by rw [EReal.coe_mul, ← he j]
  have hs : (0 : ℝ) < ∑ j, (e j).toReal * (e j).toReal := by
    rw [hsum] at hpos; exact_mod_cast hpos
  unfold unit
  rw [hsum, Ideal.rsqrt_coe, if_neg (not_lt.mpr hs.le), if_neg hs.ne']
  conv_lhs => rw [he k]
  rw [← EReal.coe_mul, div_eq_mul_inv]

/-- The cosine of the angle between two rows. -/
def cosine (a b : Fin K → EReal) : EReal := ∑ k, unit a k * unit b k

theorem cosine_real (a b : Fin K → EReal) : IsReal (cosine a b) :=
  IsReal.sum_fin _ fun k => (unit_real a k).mul (unit_real b k)

/-! ## The two ways of writing a row of the result -/

variable {N : ℕ}

/-- A row times the reciprocal square root of its sum of squares. -/
def scaled (w : Fin K → EReal) : Fin K → EReal := fun k => w k * Ideal.rsqrt (∑ j, w j * w j)

/-- The inner product of the rescaled row `x` with an already rescaled class row `wn`. -/
def dotScaled (x wn : Fin K → EReal) : EReal := ∑ k, scaled x k * wn k

/-- Whether class `n` is the row's label. -/
abbrev hit (lab : BitVec 32) (n : Fin N) : BitVec 1 := IntOp.cmpi .eq lab (BitVec.ofNat 32 n.val)

/-- The labelled cosine of the row, picked out as a sum over all classes. -/
def picked (lab : BitVec 32) (x : Fin K → EReal) (Wn : Fin N → Fin K → EReal) : EReal :=
  ∑ q : Fin N, Scalar.select (hit lab q) (dotScaled x (Wn q)) zero

/-- FIRST WRITING: the scaled cosine plus, at the labelled class, the scaled correction. -/
def rowCorrected (lab : BitVec 32) (x : Fin K → EReal) (Wn : Fin N → Fin K → EReal) (n : Fin N) : EReal :=
  dotScaled x (Wn n) * scl
    + Scalar.select (hit lab n) ((phi (picked lab x Wn) - picked lab x Wn) * scl) zero

/-- The inner product of two rows each divided by the square root of its sum of squares. -/
def dotDivided (x w : Fin K → EReal) : EReal :=
  ∑ k, Ideal.div (x k) (Ideal.sqrt (zero + ∑ j, x j * x j)) * Ideal.div (w k) (Ideal.sqrt (zero + ∑ j, w j * w j))

/-- SECOND WRITING: the blend of `φ(c)` and `c` by the label's indicator, scaled. -/
def rowBlended (lab : BitVec 32) (x : Fin K → EReal) (W : Fin N → Fin K → EReal) (n : Fin N) : EReal :=
  ((((hit lab n).toNat : ℝ) : EReal) * phi (dotDivided x (W n))
    + (one - (((hit lab n).toNat : ℝ) : EReal)) * dotDivided x (W n)) * scl

theorem dotScaled_eq_cosine (x w : Fin K → EReal) (hx : ∀ k, IsReal (x k)) (hxp : (0 : EReal) < ∑ j, x j * x j)
    (hw : ∀ k, IsReal (w k)) (hwp : (0 : EReal) < ∑ j, w j * w j) :
    dotScaled x (scaled w) = cosine x w :=
  Finset.sum_congr rfl fun k _ => by
    show x k * Ideal.rsqrt (∑ j, x j * x j) * (w k * Ideal.rsqrt (∑ j, w j * w j)) = _
    rw [mul_rsqrt_eq_unit x hx hxp, mul_rsqrt_eq_unit w hw hwp]

theorem dotDivided_eq_cosine (x w : Fin K → EReal) (hx : ∀ k, IsReal (x k)) (hxp : (0 : EReal) < ∑ j, x j * x j)
    (hw : ∀ k, IsReal (w k)) (hwp : (0 : EReal) < ∑ j, w j * w j) :
    dotDivided x w = cosine x w :=
  Finset.sum_congr rfl fun k _ => by rw [div_sqrt_eq_unit x hx hxp, div_sqrt_eq_unit w hw hwp]

/-- Two different classes below 2³² have different words. -/
theorem ofNat_inj_of_lt {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- At the labelled class the sum over the classes picks that class's term. -/
theorem sum_select_hit (hN : N ≤ 2 ^ 32) (lab : BitVec 32) (f : Fin N → EReal) (n : Fin N) (hn : hit lab n = 1#1) :
    ∑ q : Fin N, Scalar.select (hit lab q) (f q) zero = f n := by
  rw [Finset.sum_eq_single n]
  · rw [hn]; rfl
  · intro q _ hq
    have : hit lab q ≠ 1#1 := fun h1 => hq (Fin.ext (ofNat_inj_of_lt (lt_of_lt_of_le q.isLt hN) (lt_of_lt_of_le n.isLt hN)
      ((IntOp.cmpi_eq.mp h1).symm.trans (IntOp.cmpi_eq.mp hn))))
    rw [ValueIdx.eq_zero_of_ne_one this, zero_eq]; rfl
  · intro h; exact absurd (Finset.mem_univ n) h

/-- THE TWO WRITINGS AGREE on rows of real numbers that are not all zero. -/
theorem rowCorrected_eq_rowBlended (hN : N ≤ 2 ^ 32) (lab : BitVec 32) (x : Fin K → EReal) (W : Fin N → Fin K → EReal) (n : Fin N)
    (hx : ∀ k, IsReal (x k)) (hxp : (0 : EReal) < ∑ j, x j * x j)
    (hW : ∀ q k, IsReal (W q k)) (hWp : ∀ q, (0 : EReal) < ∑ j, W q j * W q j) :
    rowCorrected lab x (fun q => scaled (W q)) n = rowBlended lab x W n := by
  unfold rowCorrected rowBlended picked
  have hcos : ∀ q, dotScaled x (scaled (W q)) = cosine x (W q) := fun q =>
    dotScaled_eq_cosine x (W q) hx hxp (hW q) (hWp q)
  simp only [hcos, dotDivided_eq_cosine x (W n) hx hxp (hW n) (hWp n)]
  rcases BitVec.eq_zero_or_eq_one (hit lab n) with h0 | h1
  · rw [h0]
    show cosine x (W n) * scl + zero = ((((0 : ℕ) : ℝ) : EReal) * _ + (one - (((0 : ℕ) : ℝ) : EReal)) * _) * scl
    rw [zero_eq, one_eq, add_zero, Nat.cast_zero, EReal.coe_zero, zero_mul, zero_add, sub_zero, one_mul]
  · rw [sum_select_hit hN lab (fun q => cosine x (W q)) n h1, h1]
    show cosine x (W n) * scl + (phi (cosine x (W n)) - cosine x (W n)) * scl
      = ((((1 : ℕ) : ℝ) : EReal) * _ + (one - (((1 : ℕ) : ℝ) : EReal)) * _) * scl
    obtain ⟨c, hc⟩ := cosine_real x (W n)
    obtain ⟨p, hp⟩ := phi_real (cosine_real x (W n))
    obtain ⟨s, hs⟩ := scl_real
    rw [one_eq, Nat.cast_one, EReal.coe_one, one_mul, sub_self_one, zero_mul, add_zero, hp, hc, hs]
    rw [← EReal.coe_sub, ← EReal.coe_mul, ← EReal.coe_mul, ← EReal.coe_add, ← EReal.coe_mul]
    exact congrArg _ (by ring)
where
  sub_self_one : (1 : EReal) - 1 = 0 := by
    rw [show (1 : EReal) = ((1 : ℝ) : EReal) from rfl, ← EReal.coe_sub, sub_self, EReal.coe_zero]

end Cert.Margin

end
-- ==== Proof.KernelRows.lean ====
/-
  The two kernel bodies read at an index, at the extended reals.

  The first body rescales every row of the class table by the reciprocal square root of the row's sum of squares. The
  second, on a block of 256 rows of the batch, rescales the rows the same way, takes their inner products with all
  5000 rescaled class rows, compares each row's label with the class number, picks the labelled cosine out as a sum
  along the row, and adds the margin's correction at the labelled class: entry (p, q) of what it stores is the first
  writing of the margin layer (`Cert.Margin.rowCorrected`) on row p at class q.
-/
import proofs.«137166_j21114059227271_2_alg».proof.Proof.Gen.KernelIdeal.Skeleton
import proofs.«137166_j21114059227271_2_alg».proof.Proof.LibBlockOps
import proofs.«137166_j21114059227271_2_alg».proof.Proof.LibColumn
import proofs.«137166_j21114059227271_2_alg».proof.Proof.LibTransposedProduct
import proofs.«137166_j21114059227271_2_alg».proof.Proof.Margin
import Idealize.ShloMosaic.Lib.Pipeline.Value

noncomputable section

namespace Cert.KernelIdeal.Rows

open Cert.KernelIdeal Cert.KernelIdeal.Gen Idealize.ShloMosaic Idealize.ShloMosaic.ValueIdx Cert.Margin

/-- The reciprocal square root of a row's sum of squares, repeated along the row: entry (a, k). -/
theorem rsqrt_rowsum_apply {A : ℕ} (v : FVec Ideal ⟨2, ![A, 512]⟩ .f32)
    (hr : (⟨2, ![A, 512]⟩ : Shape).Reduces [1] ⟨1, ![A]⟩) (hφ : FKind.Formats .f32)
    (hadd : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, 512]⟩)
    (a : Fin A) (k : Fin 512) :
    broadcastTo ⟨2, ![A, 512]⟩ (rsqrt (shapeCast ⟨2, ![A, 1]⟩
        (multiReduction (F := Ideal) .add [1] ⟨1, ![A]⟩ (mulf v v) 0x00000000#32 hr hφ hadd) hc)) hb (ix2 a k)
      = Ideal.rsqrt (∑ j : Fin 512, v (ix2 a j) * v (ix2 a j)) := by
  rw [Cert.BlockOps.broadcastTo_a1_ab_apply]
  show Ideal.rsqrt (shapeCast ⟨2, ![A, 1]⟩ _ hc (ix2 a (0 : Fin 1))) = _
  refine congrArg Ideal.rsqrt ?_
  refine (Cert.Lib.Column.shapeCast_a_a1_apply _ hc a 0).trans ?_
  exact Cert.BlockOps.rowSum_apply (mulf v v) hr hφ hadd a

/-- The first body: a class row rescaled. -/
theorem weight_row_apply (v0 : Vec Ideal S5000x512 .f32) (n : Fin 5000) (k : Fin 512) :
    k0_pay1 (F := Ideal) v0 (ix2 n k) = scaled (fun j => v0 (ix2 n j)) k := by
  unfold k0_pay1
  dsimp only
  rw [truncf_apply, mulf_apply]
  exact congrArg (v0 (ix2 n k) * ·) (rsqrt_rowsum_apply v0 _ _ _ _ _ n k)

theorem dims_eq : dot_S256x512_S5000x512_S256x5000_1_1_0_0_n_n = DotDims.transposedRhs 256 512 5000 := rfl

/-- The second body's inner products: row p of the block, rescaled, against class row q as loaded. -/
theorem cos_apply (v0 : Vec Ideal S256x512 .f32) (v8 : Vec Ideal S5000x512 .bf16) (p : Fin 256) (q : Fin 5000) :
    k1_pay2 (F := Ideal) v0 v8 (ix2 p q) = dotScaled (fun k => v0 (ix2 p k)) (fun k => v8 (ix2 q k)) := by
  unfold k1_pay2
  dsimp only
  refine (Cert.Lib.TransposedProduct.matmul_apply _ dims_eq none _ _ p q).trans ?_
  refine Finset.sum_congr rfl fun k _ => ?_
  rw [truncf_apply, mulf_apply, shapeCast_self v8]
  exact congrArg (· * v8 (ix2 q k)) (congrArg (v0 (ix2 p k) * ·) (rsqrt_rowsum_apply v0 _ _ _ _ _ p k))

/-- The label's indicator: row p's label against the class number q. -/
theorem hit_apply (v11 : Vec Ideal S256x1 .i32) (p : Fin 256) (q : Fin 5000) :
    k1_pay3 (F := Ideal) v11 (ix2 p q) = hit (v11 (ix2 p (0 : Fin 1))) q := by
  unfold k1_pay3
  dsimp only
  show IntOp.cmpi .eq (broadcastTo S256x5000 (shapeCast S256x1 v11 shapeCasts_S256x1_S256x1) broadcasts_S256x1_S256x5000 (ix2 p q))
    (iota .tc S256x5000 32 [1] iota_S256x5000_d1_w32 (ix2 p q)) = _
  rw [Cert.BlockOps.broadcastTo_a1_ab_apply, shapeCast_self v11, iota_single_apply]

/-- The labelled cosine of row p, as the body sums it along the row. -/
theorem picked_apply (v0 : Vec Ideal S256x512 .f32) (v8 : Vec Ideal S5000x512 .bf16) (v11 : Vec Ideal S256x1 .i32) (p : Fin 256)
    (hr : S256x5000.Reduces [1] S256) (hφ : FKind.Formats .f32) (hadd : (0x00000000#32 : BitVec 32) = FKind.add.neutral .f32 hφ) :
    shapeCast S256x1 (multiReduction (F := Ideal) .add [1] S256
        (select (k1_pay3 v11) (k1_pay2 v0 v8) (broadcast S256x5000 (Scalar.ofBits (F := Ideal) .f32 0x00000000#32))) 0x00000000#32 hr hφ hadd)
      shapeCasts_S256_S256x1 (ix2 p (0 : Fin 1))
      = picked (v11 (ix2 p (0 : Fin 1))) (fun k => v0 (ix2 p k)) (fun q k => v8 (ix2 q k)) := by
  refine (Cert.Lib.Column.shapeCast_a_a1_apply _ shapeCasts_S256_S256x1 p 0).trans ?_
  refine (Cert.BlockOps.rowSum_apply _ hr hφ hadd p).trans ?_
  refine Finset.sum_congr rfl fun q _ => ?_
  rw [select_apply, hit_apply, cos_apply]
  rfl

/-- The correction of row p, repeated along the row. -/
theorem delta_apply (v0 : Vec Ideal S256x512 .f32) (v8 : Vec Ideal S5000x512 .bf16) (v11 : Vec Ideal S256x1 .i32)
    (p : Fin 256) (q : Fin 5000) :
    k1_pay4 (F := Ideal) v0 v8 v11 (ix2 p q)
      = (phi (picked (v11 (ix2 p (0 : Fin 1))) (fun k => v0 (ix2 p k)) (fun q k => v8 (ix2 q k)))
          - picked (v11 (ix2 p (0 : Fin 1))) (fun k => v0 (ix2 p k)) (fun q k => v8 (ix2 q k))) * scl := by
  unfold k1_pay4
  dsimp only
  rw [Cert.BlockOps.broadcastTo_a1_ab_apply, shapeCast_self]
  rw [← picked_apply v0 v8 v11 p _ _ _]
  rfl

/-- THE SECOND BODY at (p, q): the first writing of the margin layer on row p at class q. -/
theorem body_apply (x0 : Vec Ideal S256x1 .i32) (x1 : Vec Ideal S256x512 .f32) (x2 : Vec Ideal S5000x512 .bf16)
    (p : Fin 256) (q : Fin 5000) :
    k1_pay1 (F := Ideal) (k1_pay2 x1 x2) (k1_pay3 x0) (k1_pay4 x1 x2 x0) (Scalar.ofBits .f32 0x41F00000#32) (ix2 p q)
      = rowCorrected (x0 (ix2 p (0 : Fin 1))) (fun k => x1 (ix2 p k)) (fun q k => x2 (ix2 q k)) q := by
  unfold k1_pay1
  rw [addf_apply, mulf_apply, select_apply, cos_apply, hit_apply, delta_apply]
  rfl

end Cert.KernelIdeal.Rows

end
-- ==== Proof.KernelArrays.lean ====
/-
  From blocks to arrays: what each region of the kernel program leaves in its output array, as ONE function of the
  arrays the region finds on entry.

  The first region has a single grid point whose block is the whole class table: the table ends with every row rescaled
  by the reciprocal square root of its sum of squares. The second region has 32 grid points; point t reads rows
  256·t … 256·t + 255 of the labels and of the batch and the whole rescaled table, and writes rows 256·t … 256·t + 255
  of the result; the 32 blocks tile the result, so the result array ends, at every (r, n), with the first writing of
  the margin layer on row r at class n.
-/
import proofs.«137166_j21114059227271_2_alg».proof.Proof.Gen.KernelIdeal.Frame
import proofs.«137166_j21114059227271_2_alg».proof.Proof.KernelRows
import Idealize.ShloMosaic.Lib.Pipeline.Value

set_option maxRecDepth 16384

noncomputable section

namespace Cert.KernelIdeal.Arrays

open Cert.KernelIdeal Cert.KernelIdeal.Gen Cert.KernelIdeal.Rows Cert.Margin
open Idealize.ShloMosaic Idealize.ShloMosaic.TcCoe Idealize.ShloMosaic.ValueIdx Idealize.SL.Sem
open Idealize.ShloMosaic.Pipeline (Dat Cfg Window)

/-- A matrix given by its entries. -/
def ofRows {α : Type} {A B : ℕ} (g : Fin A → Fin B → α) : (⟨2, ![A, B]⟩ : Shape).Idx → α := fun i => g (i 0) (i 1)

theorem ofRows_ix2 {α : Type} {A B : ℕ} (g : Fin A → Fin B → α) (a : Fin A) (b : Fin B) : ofRows g (ix2 a b) = g a b := rfl

/-- The class table with every row rescaled. -/
def tableG (A : S5000x512.Idx → EReal) : S5000x512.Idx → EReal :=
  ofRows fun n k => scaled (fun j => A (ix2 n j)) k

/-- The result: at (r, n) the first writing of the margin layer on row r at class n, over the label column `L`, the batch
    `X` and the rescaled table `Wn`. -/
def resultG (L : S8192x1.Idx → BitVec 32) (X : S8192x512.Idx → EReal) (Wn : S5000x512.Idx → EReal) : S8192x5000.Idx → EReal :=
  ofRows fun r n => rowCorrected (L (ix2 r (0 : Fin 1))) (fun k => X (ix2 r k)) (fun q k => Wn (ix2 q k)) n

theorem hz : (![0, 0] : Fin 2 → Nat) = fun _ => 0 := funext fun a => by fin_cases a <;> rfl

/-- The rescaled table depends only on the table's entries. -/
theorem tableG_congr (X A : S5000x512.Idx → EReal) (hXA : ∀ y, X y = A y) (j j' : S5000x512.Idx) (hj : j' = j) :
    tableG X j = tableG A j' := by
  rw [hj, show X = A from funext hXA]

variable (V : (c : Dev nD) → (b : Ref sig .tc) → Buf (Elt Ideal) ((c : Thread nD τ).loc b))

/-! ## The first region -/

/-- The first body's payload is the rescaled table, index by index. -/
theorem pay0_eq (x0 : Vec Ideal S5000x512 .f32) : k0_pay1 (F := Ideal) x0 = tableG x0 := by
  funext j
  obtain ⟨n, k, rfl⟩ : ∃ (n : Fin 5000) (k : Fin 512), j = ix2 n k := ⟨j 0, j 1, eq_ix2 j⟩
  exact weight_row_apply x0 n k

/-- The single point's blocks start at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the single point writes back is the rescaled table, as a block. -/
theorem flushed0_eq (c : Dev nD) (t : Fin cfg0.N) :
    (dat0 V c).flushed 1 t = ((cfg0.win 1).blk t).view.read (Elt Ideal) (tableG (V c main_arg2)) := by
  show (cfg0.win 1).cut (grid0.coords t) ((dat0 V c).after 1 t) = _
  rw [after0_1]
  unfold out0_1
  rw [View.canon_unit_zero hz]
  simp only [View.ld_unit_zero (S := S5000x512) hz]
  rw [pay0_eq]
  obtain ⟨e0, e1, e2, e3⟩ := idx_facts0 t
  funext j
  show tableG (fun y => V c main_arg2 (((cfg0.win 0).blk t).view.emb y)) j = tableG (V c main_arg2) (((cfg0.win 1).blk t).view.emb j)
  have h0 : ∀ y, ((cfg0.win 0).blk t).view.emb y = y := fun y => by
    funext a; apply Fin.ext
    match a with
    | ⟨0, _⟩ => show win0_0.index t (0 : Fin 2) * 5000 + 1 * (y 0).val = (y 0).val; omega
    | ⟨1, _⟩ => show win0_0.index t (1 : Fin 2) * 512 + 1 * (y 1).val = (y 1).val; omega
  have h1 : ((cfg0.win 1).blk t).view.emb j = j := by
    funext a; apply Fin.ext
    match a with
    | ⟨0, _⟩ => show win0_1.index t (0 : Fin 2) * 5000 + 1 * (j 0).val = (j 0).val; omega
    | ⟨1, _⟩ => show win0_1.index t (1 : Fin 2) * 512 + 1 * (j 1).val = (j 1).val; omega
  exact tableG_congr _ _ (fun y => congrArg (V c main_arg2) (h0 y)) _ _ h1

theorem mem_blk0 (t : Fin cfg0.N) (i : S5000x512.Idx) :
    i ∈ ((cfg0.win 1).blk t).view.set ↔ ∀ a : Fin 2, win0_1.index t a * S5000x512.size a ≤ (i a).val ∧ (i a).val < win0_1.index t a * S5000x512.size a + S5000x512.size a := by
  show i ∈ ((View.whole main_v8).slice (win0_1.rect t)).set ↔ _
  rw [View.set_slice_whole, Rect.mem_set_unit]
  exact Iff.rfl

/-- THE CLASS TABLE AFTER THE FIRST REGION: every row rescaled. -/
theorem final0 (c : Dev nD) : (dat0 V c).arrAt 1 cfg0.N = tableG (V c main_arg2) :=
  (dat0 V c).arrAt_eq_of_cover 1 (tableG (V c main_arg2)) (fun t _ => flushed0_eq V c t) (fun i => by
    refine ⟨t0_0, flush0_1 t0_0, ?_⟩
    rw [mem_blk0]
    obtain ⟨e0, e1, e2, e3⟩ := idx_facts0 t0_0
    intro a
    match a with
    | ⟨0, _⟩ => show win0_1.index t0_0 (0 : Fin 2) * 5000 ≤ (i 0).val ∧ (i 0).val < win0_1.index t0_0 (0 : Fin 2) * 5000 + 5000; have hi0 : (i 0).val < 5000 := (i 0).isLt; omega
    | ⟨1, _⟩ => show win0_1.index t0_0 (1 : Fin 2) * 512 ≤ (i 1).val ∧ (i 1).val < win0_1.index t0_0 (1 : Fin 2) * 512 + 512; have hi1 : (i 1).val < 512 := (i 1).isLt; omega)

/-! ## The second region -/

/-- Point t's blocks of the labels, the batch and the result start at row 256·t; the table's block is the whole table. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's label block is row 256·t + p of the label column. -/
theorem read_lab (c : Dev nD) (t : Fin cfg1.N) (p : Fin 256) (r : Fin 8192) (hr : r.val = t.val * 256 + p.val) :
    iblk1 V c 0 t (ix2 p (0 : Fin 1)) = V c main_v7 (ix2 r (0 : Fin 1)) := by
  obtain ⟨e0, e1, e2, e3, e4, e5, e6, e7⟩ := idx_facts1 t
  show V c main_v7 (((cfg1.win 0).blk t).view.emb (ix2 p (0 : Fin 1))) = V c main_v7 (ix2 r (0 : Fin 1))
  refine congrArg (V c main_v7) ?_
  funext a; apply Fin.ext
  match a with
  | ⟨0, _⟩ => show win1_0.index t (0 : Fin 2) * 256 + 1 * p.val = r.val; omega
  | ⟨1, _⟩ => show win1_0.index t (1 : Fin 2) * 1 + 1 * 0 = 0; omega

/-- Row p of point t's batch block is row 256·t + p of the batch. -/
theorem read_emb (c : Dev nD) (t : Fin cfg1.N) (p : Fin 256) (k : Fin 512) (r : Fin 8192) (hr : r.val = t.val * 256 + p.val) :
    iblk1 V c 1 t (ix2 p k) = V c main_arg0 (ix2 r k) := by
  obtain ⟨e0, e1, e2, e3, e4, e5, e6, e7⟩ := idx_facts1 t
  show V c main_arg0 (((cfg1.win 1).blk t).view.emb (ix2 p k)) = V c main_arg0 (ix2 r k)
  refine congrArg (V c main_arg0) ?_
  funext a; apply Fin.ext
  match a with
  | ⟨0, _⟩ => show win1_1.index t (0 : Fin 2) * 256 + 1 * p.val = r.val; omega
  | ⟨1, _⟩ => show win1_1.index t (1 : Fin 2) * 512 + 1 * k.val = k.val; omega

/-- Every point's table block is the whole rescaled table. -/
theorem read_tab (c : Dev nD) (t : Fin cfg1.N) (q : Fin 5000) (k : Fin 512) :
    iblk1 V c 2 t (ix2 q k) = V c main_v8 (ix2 q k) := by
  obtain ⟨e0, e1, e2, e3, e4, e5, e6, e7⟩ := idx_facts1 t
  show V c main_v8 (((cfg1.win 2).blk t).view.emb (ix2 q k)) = V c main_v8 (ix2 q k)
  refine congrArg (V c main_v8) ?_
  funext a; apply Fin.ext
  match a with
  | ⟨0, _⟩ => show win1_2.index t (0 : Fin 2) * 5000 + 1 * q.val = q.val; omega
  | ⟨1, _⟩ => show win1_2.index t (1 : Fin 2) * 512 + 1 * k.val = k.val; omega

/-- What point t writes back is rows 256·t … 256·t + 255 of the result. -/
theorem flushed1_eq (c : Dev nD) (t : Fin cfg1.N) :
    (dat1 V c).flushed 3 t
      = ((cfg1.win 3).blk t).view.read (Elt Ideal) (resultG (V c main_v7) (V c main_arg0) (V c main_v8)) := by
  show (cfg1.win 3).cut (grid1.coords t) ((dat1 V c).after 3 t) = _
  rw [after1_3]
  unfold out1_3
  rw [View.canon_unit_zero hz]
  simp only [View.ld_unit_zero (S := S256x512) hz, View.ld_unit_zero (S := S5000x512) hz, View.ld_unit_zero (S := S256x1) hz]
  obtain ⟨e0, e1, e2, e3, e4, e5, e6, e7⟩ := idx_facts1 t
  funext j
  obtain ⟨p, q, rfl⟩ : ∃ (p : Fin 256) (q : Fin 5000), j = ix2 p q := ⟨j 0, j 1, eq_ix2 j⟩
  have ht : t.val < 32 := (show t.val < grid1.N from t.isLt).trans_eq N_1
  have hemb : ((cfg1.win 3).blk t).view.emb (ix2 p q) = ix2 (⟨t.val * 256 + p.val, by omega⟩ : Fin 8192) q := by
    funext a; apply Fin.ext
    match a with
    | ⟨0, _⟩ => show win1_3.index t (0 : Fin 2) * 256 + 1 * p.val = t.val * 256 + p.val; omega
    | ⟨1, _⟩ => show win1_3.index t (1 : Fin 2) * 5000 + 1 * q.val = q.val; omega
  show k1_pay1 (F := Ideal) (k1_pay2 (iblk1 V c 1 t) (iblk1 V c 2 t)) (k1_pay3 (iblk1 V c 0 t)) (k1_pay4 (iblk1 V c 1 t) (iblk1 V c 2 t) (iblk1 V c 0 t)) (Scalar.ofBits .f32 0x41F00000#32) (ix2 p q)
    = resultG (V c main_v7) (V c main_arg0) (V c main_v8) (((cfg1.win 3).blk t).view.emb (ix2 p q))
  rw [hemb]
  refine (body_apply (iblk1 V c 0 t) (iblk1 V c 1 t) (iblk1 V c 2 t) p q).trans ?_
  unfold resultG
  rw [ofRows_ix2]
  rw [read_lab V c t p ⟨t.val * 256 + p.val, by omega⟩ rfl,
    show (fun k => iblk1 V c 1 t (ix2 p k)) = (fun k => V c main_arg0 (ix2 (⟨t.val * 256 + p.val, by omega⟩ : Fin 8192) k)) from
      funext fun k => read_emb V c t p k ⟨t.val * 256 + p.val, by omega⟩ rfl,
    show (fun q k => iblk1 V c 2 t (ix2 q k)) = (fun q k => V c main_v8 (ix2 q k)) from
      funext fun q => funext fun k => read_tab V c t q k]

theorem mem_blk1 (t : Fin cfg1.N) (i : S8192x5000.Idx) :
    i ∈ ((cfg1.win 3).blk t).view.set ↔ ∀ a : Fin 2, win1_3.index t a * S256x5000.size a ≤ (i a).val ∧ (i a).val < win1_3.index t a * S256x5000.size a + S256x5000.size a := by
  show i ∈ ((View.whole main_v9).slice (win1_3.rect t)).set ↔ _
  rw [View.set_slice_whole, Rect.mem_set_unit]
  exact Iff.rfl

/-- THE RESULT AFTER THE SECOND REGION: the first writing of the margin layer at every (r, n). -/
theorem final1 (c : Dev nD) :
    (dat1 V c).arrAt 3 cfg1.N = resultG (V c main_v7) (V c main_arg0) (V c main_v8) :=
  (dat1 V c).arrAt_eq_of_cover 3 (resultG (V c main_v7) (V c main_arg0) (V c main_v8)) (fun t _ => flushed1_eq V c t) (fun i => by
    have hi0 : (i 0).val < 8192 := (i 0).isLt
    have hi1 : (i 1).val < 5000 := (i 1).isLt
    let t : Fin cfg1.N := ⟨(i 0).val / 256, by show (i 0).val / 256 < grid1.N; rw [N_1]; omega⟩
    refine ⟨t, flush1_3 t, ?_⟩
    rw [mem_blk1]
    obtain ⟨e0, e1, e2, e3, e4, e5, e6, e7⟩ := idx_facts1 t
    have htv : t.val = (i 0).val / 256 := rfl
    intro a
    match a with
    | ⟨0, _⟩ => show win1_3.index t (0 : Fin 2) * 256 ≤ (i 0).val ∧ (i 0).val < win1_3.index t (0 : Fin 2) * 256 + 256; omega
    | ⟨1, _⟩ => show win1_3.index t (1 : Fin 2) * 5000 ≤ (i 1).val ∧ (i 1).val < win1_3.index t (1 : Fin 2) * 5000 + 5000; omega)

end Cert.KernelIdeal.Arrays

end
-- ==== Proof.HostPrefix.lean ====
/-
  The host operations before the first region, over any buffer contents.

  @main first wraps negative labels around (a label below zero has the length of the class map added), looks each label
  up in the class map, and views the remapped labels as a column. Those ten operations write neither the batch nor the
  class table. Stated for arbitrary contents on entry, so that nothing of the launch memory is unfolded.
-/
import proofs.«137166_j21114059227271_2_alg».proof.Proof.Gen.KernelIdeal.Launch
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.StableHlo Idealize.SL.Sem

variable {F : FTy → Type} [FloatOps F]

/-- The remapped labels as @main computes them from the labels and the class map. -/
def remapped (lab : IVec S8192 32) (cmap : IVec S100000 32) : IVec S8192 32 :=
  Host.gather gather_S100000_S8192x1_S8192_n_0_n_n_0_1_1 cmap
    (broadcastInDim S8192x1 ![0] bcast_S8192_S8192x1_0
      (select (cmpi .slt lab (broadcastInDim S8192 ![] bcast_S_S8192 (constantI S_ 32 0#32)))
        (addi lab (broadcastInDim S8192 ![] bcast_S_S8192 (constantI S_ 32 100000#32))) lab))

theorem after_v6 (W : Valuation τ sig (Elt F)) :
    (StableHlo.after (hostOps0 (F := F)) W (Proc.devRef .tc main_v6) : IVec S8192 32)
      = remapped (W (Proc.devRef .tc main_arg1)) (W (Proc.devRef .tc main_arg3)) := by
  after_results
  rfl

theorem after_v7 (W : Valuation τ sig (Elt F)) :
    (StableHlo.after (hostOps0 (F := F)) W (Proc.devRef .tc main_v7) : IVec S8192x1 32)
      = shapeCast S8192x1 (remapped (W (Proc.devRef .tc main_arg1)) (W (Proc.devRef .tc main_arg3))) shapeCasts_S8192_S8192x1 := by
  after_results
  rfl

theorem after_arg0 (W : Valuation τ sig (Elt F)) :
    StableHlo.after (hostOps0 (F := F)) W (Proc.devRef .tc main_arg0) = W (Proc.devRef .tc main_arg0) := by
  after_results

theorem after_arg2 (W : Valuation τ sig (Elt F)) :
    StableHlo.after (hostOps0 (F := F)) W (Proc.devRef .tc main_arg2) = W (Proc.devRef .tc main_arg2) := by
  after_results

end Cert.KernelIdeal.HostPrefix

end
-- ==== Proof.KernelRun.lean ====
/-
  The kernel program's run with its two results named, at the extended reals.

  The labels are remapped on the host before the first region; the first region rescales the class table; the second
  region writes the result from the remapped labels (as a column), the batch and the rescaled table. Reading the last
  boundary's contents back through the two regions and the host stretch gives each result as one function of the
  argument arrays.
-/
import proofs.«137166_j21114059227271_2_alg».proof.Proof.FrameResults
import proofs.«137166_j21114059227271_2_alg».proof.Proof.KernelArrays
import proofs.«137166_j21114059227271_2_alg».proof.Proof.HostPrefix

set_option maxRecDepth 16384

noncomputable section

namespace Cert.KernelIdeal.Whole

open Cert.KernelIdeal Cert.KernelIdeal.Gen Cert.KernelIdeal.Arrays Cert.KernelIdeal.HostPrefix
open Idealize.ShloMosaic Idealize.ShloMosaic.TcCoe Idealize.SL.Sem

variable (m : (ℓ : Loc nD τ sig) → Buf (Elt Ideal) ℓ) (ρ : Dev nD → PrngReg)

/-- The result array as a function of the argument arrays. -/
def result (X : S8192x512.Idx → EReal) (lab : IVec S8192 32) (W : S5000x512.Idx → EReal) (cmap : IVec S100000 32) :
    S8192x5000.Idx → EReal :=
  resultG (shapeCast S8192x1 (remapped lab cmap) shapeCasts_S8192_S8192x1) X (tableG W)

/-- The class table is as launched when the first region is entered. -/
theorem table_entry (c : Dev nD) : V1 m ρ c main_arg2 = m ((c : Thread nD τ).loc main_arg2) :=
  after_arg2 (W0 m ρ c)

/-- When the second region is entered the rescaled table is in place, -/
theorem table_after (c : Dev nD) : V2 m ρ c main_v8 = tableG (m ((c : Thread nD τ).loc main_arg2)) :=
  (W2_arr m ρ c 1).trans ((final0 (V1 m ρ) c).trans (congrArg tableG (table_entry m ρ c)))

/-- the label column holds the remapped labels, -/
theorem lab_after (c : Dev nD) :
    V2 m ρ c main_v7 = shapeCast S8192x1 (remapped (m ((c : Thread nD τ).loc main_arg1)) (m ((c : Thread nD τ).loc main_arg3))) shapeCasts_S8192_S8192x1 :=
  (W2_of_ne m ρ c main_v7 (by decide)).trans (after_v7 (W0 m ρ c))

/-- and the batch is as launched. -/
theorem emb_after (c : Dev nD) : V2 m ρ c main_arg0 = m ((c : Thread nD τ).loc main_arg0) :=
  (W2_of_ne m ρ c main_arg0 (by decide)).trans (after_arg0 (W0 m ρ c))

/-- The result array after the run. -/
theorem result_after (c : Dev nD) :
    W3 m ρ c (Proc.devRef .tc main_v9)
      = result (m ((c : Thread nD τ).loc main_arg0)) (m ((c : Thread nD τ).loc main_arg1)) (m ((c : Thread nD τ).loc main_arg2)) (m ((c : Thread nD τ).loc main_arg3)) := by
  refine (W3_arr m ρ c 3).trans ((final1 (V2 m ρ) c).trans ?_)
  rw [lab_after, emb_after, table_after]
  rfl

/-- The remapped labels after the run. -/
theorem labels_after (c : Dev nD) :
    W3 m ρ c (Proc.devRef .tc main_v6) = remapped (m ((c : Thread nD τ).loc main_arg1)) (m ((c : Thread nD τ).loc main_arg3)) :=
  (W3_of_ne m ρ c main_v6 (by decide)).trans ((W2_of_ne m ρ c main_v6 (by decide)).trans (after_v6 (W0 m ρ c)))

/-- THE RUN: every weakly fair execution terminates with the result array at `result` of the arguments, the second result
    at the remapped labels, and the arguments unchanged. -/
theorem run : θ_run defs (onTc (τ := τ) (main (F := Ideal))) ⟨m, fun _ => 0, ρ⟩ (fun r => ∀ c : Dev nD,
      r.2.mem ((c.tc : Thread nD τ).loc main_v9)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = remapped (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_after m ρ c), (h c).2.1.trans (labels_after m ρ c), (h c).2.2⟩)
    (Cert.KernelIdeal.GenP.frame_results m ρ)

end Cert.KernelIdeal.Whole

end
-- ==== Proof.ReferenceRows.lean ====
/-
  The reference read at an index, at the extended reals.

  Row r of the batch divided by the square root of its sum of squares, class row n of the table likewise, their inner
  product, the margin function of it at every class, the indicator of "class n is row r's label" as a number 0 or 1,
  and the blend of the two by that indicator, scaled: entry (r, n) of the reference's result is the second writing of
  the margin layer (`Cert.Margin.rowBlended`) on row r at class n.
-/
import proofs.«137166_j21114059227271_2_alg».proof.Proof.Gen.ReferenceIdeal.Read
import proofs.«137166_j21114059227271_2_alg».proof.Proof.Margin

noncomputable section

namespace Cert.ReferenceIdeal.Rows

open Cert.ReferenceIdeal Cert.ReferenceIdeal.Gen Cert.ReferenceIdeal.Read Idealize.ShloMosaic Idealize.ShloMosaic.ValueIdx Cert.Margin

/-- A row of the batch over the square root of its sum of squares. -/
theorem norm_x_apply (x0 : FVec Ideal S8192x512 .f32) (r : Fin 8192) (k : Fin 512) :
    val_main_v9 (F := Ideal) x0 (ix2 r k)
      = Ideal.div (x0 (ix2 r k)) (Ideal.sqrt (zero + ∑ j : Fin 512, x0 (ix2 r j) * x0 (ix2 r j))) := by
  rw [val_main_v9_apply, val_main_v8_apply, val_main_v7_apply, val_main_call0_v2_apply, val_main_call0_v1_apply]
  have hidx : ∀ j : Fin 512, idx_main_call0_v1 (idx_main_call0_v2 (idx_main_v8 (ix2 r k))) j = ix2 r j := fun j =>
    funext fun a => Fin.ext (by match a with | ⟨0, _⟩ => rfl | ⟨1, _⟩ => rfl)
  simp only [hidx, val_main_call0_v0_apply, val_main_call0_cst_apply, Ideal.hostDivf_def, Ideal.hostUnary_sqrt_def,
    Ideal.mulf_def, Ideal.ofBits_def]

/-- A row of the class table over the square root of its sum of squares. -/
theorem norm_w_apply (x2 : FVec Ideal S5000x512 .f32) (n : Fin 5000) (k : Fin 512) :
    val_main_v12 (F := Ideal) x2 (ix2 n k)
      = Ideal.div (x2 (ix2 n k)) (Ideal.sqrt (zero + ∑ j : Fin 512, x2 (ix2 n j) * x2 (ix2 n j))) := by
  rw [val_main_v12_apply, val_main_v11_apply, val_main_v10_apply, val_main_call1_v2_apply, val_main_call1_v1_apply]
  have hidx : ∀ j : Fin 512, idx_main_call1_v1 (idx_main_call1_v2 (idx_main_v11 (ix2 n k))) j = ix2 n j := fun j =>
    funext fun a => Fin.ext (by match a with | ⟨0, _⟩ => rfl | ⟨1, _⟩ => rfl)
  simp only [hidx, val_main_call1_v0_apply, val_main_call1_cst_apply, Ideal.hostDivf_def, Ideal.hostUnary_sqrt_def,
    Ideal.mulf_def, Ideal.ofBits_def]

/-- The inner product of the two normalised rows. -/
theorem cos_apply (x0 : FVec Ideal S8192x512 .f32) (x2 : FVec Ideal S5000x512 .f32) (r : Fin 8192) (n : Fin 5000) :
    val_main_v14 (F := Ideal) x0 x2 (ix2 r n) = dotDivided (fun k => x0 (ix2 r k)) (fun k => x2 (ix2 n k)) := by
  rw [val_main_v14_apply]
  refine Finset.sum_congr rfl fun k _ => ?_
  have hl : lidx_main_v14 (ix2 r n) k = ix2 r k :=
    funext fun a => Fin.ext (by match a with | ⟨0, _⟩ => rfl | ⟨1, _⟩ => rfl)
  have hr : idx_main_v13 (ridx_main_v14 (ix2 r n) k) = ix2 n k :=
    funext fun a => Fin.ext (by match a with | ⟨0, _⟩ => rfl | ⟨1, _⟩ => rfl)
  rw [val_main_v13_apply, hl, hr, norm_x_apply, norm_w_apply]

/-- The indicator of "class n is row r's label". -/
theorem hit_apply (x1 : IVec S8192 32) (x3 : IVec S100000 32) (r : Fin 8192) (n : Fin 5000) :
    val_main_call3_v4 (F := Ideal) x1 x3 (ix2 r n) = hit (val_main_v6 (F := Ideal) x1 x3 (ix1 r)) n := by
  rw [val_main_call3_v4_apply, val_main_call3_v2_apply, val_main_call3_v0_apply, val_main_call3_v3_apply,
    val_main_call3_v1_apply]
  have h0 : idx_main_call3_v0 (idx_main_call3_v2 (ix2 r n)) = ix1 r :=
    funext fun a => Fin.ext (by match a with | ⟨0, _⟩ => rfl)
  rw [h0]

/-- THE REFERENCE at (r, n): the second writing of the margin layer on row r at class n. -/
theorem result_apply (x0 : FVec Ideal S8192x512 .f32) (x1 : IVec S8192 32) (x2 : FVec Ideal S5000x512 .f32) (x3 : IVec S100000 32)
    (r : Fin 8192) (n : Fin 5000) :
    val_main_v38 (F := Ideal) x0 x1 x2 x3 (ix2 r n)
      = rowBlended (val_main_v6 (F := Ideal) x1 x3 (ix1 r)) (fun k => x0 (ix2 r k)) (fun q k => x2 (ix2 q k)) n := by
  rw [val_main_v38_apply, val_main_v36_apply, val_main_v32_apply, val_main_v35_apply, val_main_v34_apply,
    val_main_v31_apply, val_main_v30_apply, val_main_v27_apply, val_main_v25_apply, val_main_v29_apply,
    val_main_v22_apply, val_main_v24_apply, val_main_v20_apply, val_main_v19_apply, val_main_v17_apply,
    val_main_v15_apply, val_main_v37_apply, val_main_v33_apply, val_main_v28_apply, val_main_v26_apply,
    val_main_v23_apply, val_main_v21_apply, val_main_v18_apply, val_main_v16_apply,
    val_main_cst_apply, val_main_cst_1_apply, val_main_cst_2_apply, val_main_cst_3_apply, val_main_cst_4_apply,
    val_main_cst_5_apply, val_main_cst_6_apply, val_main_cst_7_apply, hit_apply, cos_apply]
  rfl

end Cert.ReferenceIdeal.Rows

end
-- ==== Proof.PreFacts.lean ====
/-
  What the precondition says of the inputs, at the extended reals.

  The precondition is one bit: the conjunction of "every entry of the batch is below +∞ in absolute value", the same for
  the class table, "every row of the batch has a positive sum of squares" and the same for the class table. When the bit
  is one, every entry of both arrays is a real number, and every row of both has a positive sum of squares — so no row
  is all zero and dividing a row by its Euclidean norm never divides zero by zero.
-/
import proofs.«137166_j21114059227271_2_alg».proof.Pre_finite_inputs
import Idealize.ShloMosaic.PureOps.Ideal
import Idealize.ShloMosaic.PureOps.Ideal.Laws
import Idealize.ShloMosaic.Lib.ValueIdx
import Idealize.ShloMosaic.Lib.ReduceAll

open scoped BigOperators

namespace Cert.PreFacts

open Idealize.ShloMosaic
open Cert.Pre_finite_inputs

/-- The scalar shape has one index. -/
instance : Subsingleton S_.Idx := ⟨fun a b => funext fun d => d.elim0⟩

/-- The f32 word 0x7F800000 denotes +∞. -/
theorem ofBits_inf_f32 : Ideal.ofBits .f32 0x7F800000#32 = (⊤ : EReal) := by
  simp [Ideal.ofBits, Ideal.ieee]

/-- An extended real whose absolute value max a (-a) is strictly below +∞ is a real. -/
theorem real_of_abs_lt (a : EReal)
    (h : Ideal.cmp .olt (max a (-a)) (Ideal.ofBits .f32 0x7F800000#32) = 1#1) : ∃ r : ℝ, a = (r : EReal) := by
  rw [ofBits_inf_f32] at h
  induction a using EReal.rec with
  | bot => simp [Ideal.cmp] at h
  | top => simp [Ideal.cmp] at h
  | coe r => exact ⟨r, rfl⟩

/-- The comparison "s > 0" that came out true says 0 < s. -/
theorem pos_of_cmp_ogt (s : EReal) (h : Ideal.cmp .ogt s (Ideal.ofBits .f32 0x00000000#32) = 1#1) : (0 : EReal) < s := by
  rw [Ideal.ofBits_zero_f32] at h
  by_contra hn
  simp [Ideal.cmp, hn] at h

variable [hP : Cert.Pre_finite_inputs.Facts]

/-- The host's sum of a [8192,512] array over its second axis from the zero word, read at row r: the sum over the
    512 columns of the entries of that row. -/
theorem rowsum8192 (y : FVec Ideal S8192x512 .f32) (r : Fin 8192) :
    Host.reduceAdd (F := Ideal) y (constant (F := Ideal) S_ .f32 0x00000000#32)
        Facts.reducesTo_S8192x512_S8192_d1 Facts.h_S_ (ValueIdx.ix1 r)
      = ∑ k : Fin 512, y (ValueIdx.ix2 r k) := by
  simp only [Host.reduceAdd, Ideal.hostReduceAdd_def]
  rw [Ideal.hostReduceAdd_single Facts.reducesTo_S8192x512_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The same for a [5000,512] array. -/
theorem rowsum5000 (y : FVec Ideal S5000x512 .f32) (n : Fin 5000) :
    Host.reduceAdd (F := Ideal) y (constant (F := Ideal) S_ .f32 0x00000000#32)
        Facts.reducesTo_S5000x512_S5000_d1 Facts.h_S_ (ValueIdx.ix1 n)
      = ∑ k : Fin 512, y (ValueIdx.ix2 n k) := by
  simp only [Host.reduceAdd, Ideal.hostReduceAdd_def]
  rw [Ideal.hostReduceAdd_single Facts.reducesTo_S5000x512_S5000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The precondition read back: both arrays hold real numbers, and every row of each has a positive sum of squares. -/
theorem of_pre (x : FVec Ideal Cert.Pre_finite_inputs.S8192x512 .f32) (l : IVec Cert.Pre_finite_inputs.S8192 32)
    (w : FVec Ideal Cert.Pre_finite_inputs.S5000x512 .f32) (cm : IVec Cert.Pre_finite_inputs.S100000 32)
    (h : Cert.Pre_finite_inputs.fn (F := Ideal) x l w cm = fun _ => 1#1) :
    (∀ (r : Fin 8192) (k : Fin 512), ∃ a : ℝ, x (ValueIdx.ix2 r k) = (a : EReal))
  ∧ (∀ (n : Fin 5000) (k : Fin 512), ∃ a : ℝ, w (ValueIdx.ix2 n k) = (a : EReal))
  ∧ (∀ r : Fin 8192, (0 : EReal) < ∑ k : Fin 512, x (ValueIdx.ix2 r k) * x (ValueIdx.ix2 r k))
  ∧ (∀ n : Fin 5000, (0 : EReal) < ∑ k : Fin 512, w (ValueIdx.ix2 n k) * w (ValueIdx.ix2 n k)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun r k => ?_, fun n k => ?_, fun r => ?_, fun n => ?_⟩
  · have e := Host.reduce_andi_all _ _ _ _ _ h1 (ValueIdx.ix2 r k)
    exact real_of_abs_lt _ e
  · have e := Host.reduce_andi_all _ _ _ _ _ h2 (ValueIdx.ix2 n k)
    exact real_of_abs_lt _ e
  · have e := Host.reduce_andi_all _ _ _ _ _ h3 (ValueIdx.ix1 r)
    have e' := pos_of_cmp_ogt _ e
    rw [rowsum8192] at e'
    exact e'
  · have e := Host.reduce_andi_all _ _ _ _ _ h4 (ValueIdx.ix1 n)
    have e' := pos_of_cmp_ogt _ e
    rw [rowsum5000] at e'
    exact e'

end Cert.PreFacts
-- ==== Proof.Bridge.lean ====
/-
  The bridge: under the precondition the reference's result is the kernel program's result, index by index.

  Entry (r, n) of the reference's result is the second writing of the margin layer on row r at class n, over the
  remapped label of row r, row r of the batch and the rows of the class table; entry (r, n) of the kernel program's
  result is the first writing over the same label, the same row and the rescaled rows. The precondition makes every
  entry real and every row's sum of squares positive, and there the two writings agree.
-/
import proofs.«137166_j21114059227271_2_alg».proof.Proof.KernelRun
import proofs.«137166_j21114059227271_2_alg».proof.Proof.ReferenceRows
import proofs.«137166_j21114059227271_2_alg».proof.Proof.PreFacts

noncomputable section

namespace Cert.Bridge

open Idealize.ShloMosaic Idealize.ShloMosaic.ValueIdx Cert.Margin
open Cert.KernelIdeal.Arrays Cert.KernelIdeal.HostPrefix Cert.KernelIdeal.Whole

/-- Both programs remap the labels by the same host operations. -/
theorem remapped_eq (x1 : IVec Cert.KernelIdeal.S8192 32) (x3 : IVec Cert.KernelIdeal.S100000 32) :
    Cert.ReferenceIdeal.Read.val_main_v6 (F := Ideal) x1 x3 = remapped x1 x3 := rfl

variable [hP : Cert.Pre_finite_inputs.Facts]

/-- THE TWO RESULTS ARE ONE FUNCTION of arguments satisfying the precondition. -/
theorem result_eq (x0 : FVec Ideal Cert.KernelIdeal.S8192x512 .f32) (x1 : IVec Cert.KernelIdeal.S8192 32)
    (x2 : FVec Ideal Cert.KernelIdeal.S5000x512 .f32) (x3 : IVec Cert.KernelIdeal.S100000 32)
    (hpre : Cert.Pre_finite_inputs.fn (F := Ideal) x0 x1 x2 x3 = fun _ => 1#1) :
    Cert.ReferenceIdeal.Read.val_main_v38 (F := Ideal) x0 x1 x2 x3 = result x0 x1 x2 x3 := by
  obtain ⟨hx, hw, hxp, hwp⟩ := Cert.PreFacts.of_pre x0 x1 x2 x3 hpre
  funext i
  obtain ⟨r, n, rfl⟩ : ∃ (r : Fin 8192) (n : Fin 5000), i = ix2 r n := ⟨i 0, i 1, eq_ix2 i⟩
  rw [Cert.ReferenceIdeal.Rows.result_apply]
  unfold result resultG
  rw [ofRows_ix2, remapped_eq]
  have hlab : shapeCast Cert.KernelIdeal.S8192x1 (remapped x1 x3) Cert.KernelIdeal.Facts₀.shapeCasts_S8192_S8192x1 (ix2 r (0 : Fin 1))
      = remapped x1 x3 (ix1 r) :=
    Cert.Lib.Column.shapeCast_a_a1_apply _ _ r 0
  rw [hlab]
  exact (rowCorrected_eq_rowBlended (by norm_num) (remapped x1 x3 (ix1 r)) (fun k => x0 (ix2 r k))
    (fun q k => x2 (ix2 q k)) n (hx r) (hxp r) hw hwp).symm

end Cert.Bridge

end
-- ==== Proof.lean ====
/-
  The certificate of the sampled margin layer.

  The kernel program remaps the labels on the host, rescales the class table in a first region, and in a second region
  computes, block of rows by block of rows, the scaled cosines of the batch rows against the class rows with the
  margin's correction added at each row's labelled class. The reference divides the rows by their Euclidean norms,
  takes all the cosines, applies the margin function at every class, and blends by the label's indicator.

  The three frames: the two kernel programs' are generated; the reference's is its generated run with the results
  dropped. The idealized kernel program is the program's own text read at the extended reals, so there is nothing to
  preserve. The algebraic claim: the kernel program's run ends with the result array at one function of the arguments
  (Proof/KernelRun.lean), the reference's generated run ends with its result at its own composed term, and under the
  precondition — every entry finite, every row's sum of squares positive — the two are the same function
  (Proof/Bridge.lean); the remapped labels are computed by the same host operations in both.
-/
import proofs.«137166_j21114059227271_2_alg».proof.Defs
import proofs.«137166_j21114059227271_2_alg».proof.Proof.Gen.Kernel
import proofs.«137166_j21114059227271_2_alg».proof.Proof.Gen.Kernel.Skeleton
import proofs.«137166_j21114059227271_2_alg».proof.Proof.Gen.Kernel.Launch
import proofs.«137166_j21114059227271_2_alg».proof.Proof.Gen.Kernel.Points
import proofs.«137166_j21114059227271_2_alg».proof.Proof.Gen.Kernel.Frame
import proofs.«137166_j21114059227271_2_alg».proof.Proof.Gen.KernelIdeal
import proofs.«137166_j21114059227271_2_alg».proof.Proof.Gen.KernelIdeal.Skeleton
import proofs.«137166_j21114059227271_2_alg».proof.Proof.Gen.KernelIdeal.Launch
import proofs.«137166_j21114059227271_2_alg».proof.Proof.Gen.KernelIdeal.Points
import proofs.«137166_j21114059227271_2_alg».proof.Proof.Gen.KernelIdeal.Frame
import proofs.«137166_j21114059227271_2_alg».proof.Proof.Gen.ReferenceIdeal
import proofs.«137166_j21114059227271_2_alg».proof.Proof.Gen.Pre_finite_inputs
import proofs.«137166_j21114059227271_2_alg».proof.Proof.Gen.ReferenceIdeal.Run
import proofs.«137166_j21114059227271_2_alg».proof.Proof.Gen.ReferenceIdeal.Read
import proofs.«137166_j21114059227271_2_alg».proof.Proof.KernelRun
import proofs.«137166_j21114059227271_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run leaves its arguments as they were. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments, both programs end with the same two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, (hagree c).1, (hagree c).2.1, (hagree c).2.2.1, (hagree c).2.2.2]
    exact Cert.Bridge.result_eq _ _ _ _ (hpre c)
  · rw [(hagree c).2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
